-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x768 : Shape := ⟨3, ![1, 128, 768]⟩
abbrev S2048x768 : Shape := ⟨2, ![2048, 768]⟩
abbrev S2048 : Shape := ⟨1, ![2048]⟩
abbrev S768x2048 : Shape := ⟨2, ![768, 2048]⟩
abbrev S768 : Shape := ⟨1, ![768]⟩
abbrev S_ : Shape := ⟨0, ![]⟩

class Facts : Prop where
  bcast_S_S1x128x768 : S_.BroadcastsInDim S1x128x768 (![] : Fin 0 → Fin S1x128x768.rank)
  reducesTo_S1x128x768_S_d0_1_2 : S1x128x768.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S2048 : S_.BroadcastsInDim S2048 (![] : Fin 0 → Fin S2048.rank)
  reducesTo_S2048_S_d0 : S2048.ReducesTo [0] S_
  bcast_S_S768x2048 : S_.BroadcastsInDim S768x2048 (![] : Fin 0 → Fin S768x2048.rank)
  reducesTo_S768x2048_S_d0_1 : S768x2048.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S1x128x768 .f32) (main_arg1 : FVec F S2048x768 .f32) (main_arg2 : FVec F S2048 .f32) (main_arg3 : FVec F S768x2048 .f32) (main_arg4 : FVec F S768 .f32) : IVec S_ 1 :=
  let main_v0 : FVec F S1x128x768 .f32 := Host.absf main_arg0
  let main_cst : FVec F S_ .f32 := constant S_ .f32 0x7F800000#32
  let main_v1 : FVec F S1x128x768 .f32 := broadcastInDim S1x128x768 ![] bcast_S_S1x128x768 main_cst
  let main_v2 : IVec S1x128x768 1 := cmpf .olt main_v0 main_v1
  let main_c : IVec S_ 1 := constantI S_ 1 1#1
  let main_v3 : IVec S_ 1 := (fun x v => Host.reduce IntOp.andi x v reducesTo_S1x128x768_S_d0_1_2 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S768x2048 .f32 := Host.absf main_arg3
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_arg4 main_v13 main_v16
-- ==== Kernel.lean ====
abbrev S1x128x768 : Shape := ⟨3, ![1, 128, 768]⟩
abbrev S2048x768 : Shape := ⟨2, ![2048, 768]⟩
abbrev S2048 : Shape := ⟨1, ![2048]⟩
abbrev S768x2048 : Shape := ⟨2, ![768, 2048]⟩
abbrev S768 : Shape := ⟨1, ![768]⟩
abbrev S1x2048 : Shape := ⟨2, ![1, 2048]⟩
abbrev S1x768 : Shape := ⟨2, ![1, 768]⟩
abbrev S1x128x2048x768 : Shape := ⟨4, ![1, 128, 2048, 768]⟩
abbrev S1x16x768 : Shape := ⟨3, ![1, 16, 768]⟩
abbrev S1x128 : Shape := ⟨2, ![1, 128]⟩
abbrev S1x16x128x768 : Shape := ⟨4, ![1, 16, 128, 768]⟩
abbrev S16x768 : Shape := ⟨2, ![16, 768]⟩
abbrev S128x768 : Shape := ⟨2, ![128, 768]⟩
abbrev S16x128 : Shape := ⟨2, ![16, 128]⟩
abbrev S16x128x1 : Shape := ⟨3, ![16, 128, 1]⟩
abbrev S16x128x768 : Shape := ⟨3, ![16, 128, 768]⟩

abbrev nBuf : Space → Nat
  | .hbm => 10
  | .vmem => 12
  | .smem => 0
  | _ => 0

abbrev bufTy : (tb : Table) → Fin (tcTables nBuf tb) → BufTy
  | .hbm, ⟨0, _⟩ => ⟨S1x128x768, .f32⟩
  | .hbm, ⟨1, _⟩ => ⟨S2048x768, .f32⟩
  | .hbm, ⟨2, _⟩ => ⟨S2048, .f32⟩
  | .hbm, ⟨3, _⟩ => ⟨S768x2048, .f32⟩
  | .hbm, ⟨4, _⟩ => ⟨S768, .f32⟩
  | .hbm, ⟨5, _⟩ => ⟨S1x2048, .f32⟩
  | .hbm, ⟨6, _⟩ => ⟨S1x768, .f32⟩
  | .hbm, ⟨7, _⟩ => ⟨S2048x768, .f32⟩
  | .hbm, ⟨8, _⟩ => ⟨S1x128x768, .f32⟩
  | .hbm, ⟨9, _⟩ => ⟨S1x128x2048x768, .f32⟩
  | .local _ .vmem, ⟨0, _⟩ => ⟨S1x16x768, .f32⟩
  | .local _ .vmem, ⟨1, _⟩ => ⟨S1x16x768, .f32⟩
  | .local _ .vmem, ⟨2, _⟩ => ⟨S2048x768, .f32⟩
  | .local _ .vmem, ⟨3, _⟩ => ⟨S1x128, .f32⟩
  | .local _ .vmem, ⟨4, _⟩ => ⟨S1x128, .f32⟩
  | .local _ .vmem, ⟨5, _⟩ => ⟨S2048x768, .f32⟩
  | .local _ .vmem, ⟨6, _⟩ => ⟨S1x768, .f32⟩
  | .local _ .vmem, ⟨7, _⟩ => ⟨S1x16x768, .f32⟩
  | .local _ .vmem, ⟨8, _⟩ => ⟨S1x16x768, .f32⟩
  | .local _ .vmem, ⟨9, _⟩ => ⟨S1x16x128x768, .f32⟩
  | .local _ .vmem, ⟨10, _⟩ => ⟨S1x16x128x768, .f32⟩
  | .local _ .vmem, ⟨11, _⟩ => ⟨S16x768, .f32⟩
  | _, _ => ⟨S1x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v7 : Index := Scalar.indexCast v4
  let c0_3 : Index := 0#32
  ![v7.toNat, 0]
def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_17 : BitVec 32 := 0#32
  let v39 : BitVec 1 := Scalar.cmpi .ne v38 c0_i32_17
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2048_S1x2048 : S2048.ShapeCasts S1x2048
  shapeCasts_S768_S1x768 : S768.ShapeCasts S1x768
  transposes_S768x2048_S2048x768_1_0 : S768x2048.Transposes [1, 0] S2048x768
  inb_S16x768_S16x768_0_0 : ∀ a, (![0, 0] : Fin 2 → Nat) a + S16x768.size a ≤ S16x768.size a
  h_S16x768 : 0 < S16x768.numel
  shapeCasts_S16x768_S16x768 : S16x768.ShapeCasts S16x768
  inb_S1x16x768_S1x16x768_0_0_0 : ∀ a, (![0, 0, 0] : Fin 3 → Nat) a + S1x16x768.size a ≤ S1x16x768.size a
  h_S1x16x768 : 0 < S1x16x768.numel
  shapeCasts_S1x16x768_S16x768 : S1x16x768.ShapeCasts S16x768
  h_S128x768 : 0 < S128x768.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S128x768_S128x768 : S128x768.ShapeCasts S128x768
  bitsLt_bf16_f32 : FTy.bits .bf16 < FTy.bits .f32
  broadcasts_S1x128_S16x128 : S1x128.Broadcasts S16x128
  shapeCasts_S16x128_S16x128x1 : S16x128.ShapeCasts S16x128x1
  shapeCasts_S128x768_S1x128x768 : S128x768.ShapeCasts S1x128x768
  broadcasts_S16x128x1_S16x128x768 : S16x128x1.Broadcasts S16x128x768
  broadcasts_S1x128x768_S16x128x768 : S1x128x768.Broadcasts S16x128x768
  inb_S1x16x128x768_S1x16x128x768_0_0_0_0 : ∀ a, (![0, 0, 0, 0] : Fin 4 → Nat) a + S1x16x128x768.size a ≤ S1x16x128x768.size a
  h_S1x16x128x768 : 0 < S1x16x128x768.numel
  shapeCasts_S1x16x128x768_S16x128x768 : S1x16x128x768.ShapeCasts S16x128x768
  shapeCasts_S16x128x768_S1x16x128x768 : S16x128x768.ShapeCasts S1x16x128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S16x768 : S1x768.Broadcasts S16x768
  shapeCasts_S16x768_S1x16x768 : S16x768.ShapeCasts S1x16x768
  dot_S16x768_S128x768_S16x128_1_1_0_0_n_n_wf : DotDims.WF S16x768 S128x768 S16x128 [1] [1] [0] [0] [] []
  dot_S16x128_S128x768_S16x768_1_0_0_1_n_n_wf : DotDims.WF S16x128 S128x768 S16x768 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x768.size a ≤ S2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x768.size a ≤ S1x128x768.size a
  hwx0_0 : ∀ i : grid0.Coords, EltTy.bits .f32 = 32 ∨ (Rect.block (s := S1x128x768) S1x16x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x768.size a
  hwx0_1 : ∀ i : grid0.Coords, EltTy.bits .f32 = 32 ∨ (Rect.block (s := S2048x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x2048.size a
  hwx0_2 : ∀ i : grid0.Coords, EltTy.bits .f32 = 32 ∨ (Rect.block (s := S1x2048) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S2048x768.size a
  hwx0_3 : ∀ i : grid0.Coords, EltTy.bits .f32 = 32 ∨ (Rect.block (s := S2048x768) S2048x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x768.size a ≤ S1x128x768.size a
  hwx0_5 : ∀ i : grid0.Coords, EltTy.bits .f32 = 32 ∨ (Rect.block (s := S1x128x768) S1x16x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x128x768.size a ≤ S1x128x2048x768.size a
  hwx0_6 : ∀ i : grid0.Coords, EltTy.bits .f32 = 32 ∨ (Rect.block (s := S1x128x2048x768) S1x16x128x768.size (cc0_transform_6 i) (hinb0_6 i)).WholeWords (EltTy.packing .f32)

variable [Facts₀]

def dot_S16x768_S128x768_S16x128_1_1_0_0_n_n : DotDims S16x768 S128x768 S16x128 where
  lhsContracting := [1]
  rhsContracting := [1]
  lhsNonContracting := [0]
  rhsNonContracting := [0]
  lhsBatch := []
  rhsBatch := []
  wf := dot_S16x768_S128x768_S16x128_1_1_0_0_n_n_wf
def dot_S16x128_S128x768_S16x768_1_0_0_1_n_n : DotDims S16x128 S128x768 S16x768 where
  lhsContracting := [1]
  rhsContracting := [0]
  lhsNonContracting := [0]
  rhsNonContracting := [1]
  lhsBatch := []
  rhsBatch := []
  wf := dot_S16x128_S128x768_S16x768_1_0_0_1_n_n_wf

abbrev win0_0 : Pipeline.Window sig grid0 :=
  Pipeline.Window.ofSpec (Memref.whole main_arg0) S1x16x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x16x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x16x128x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun _ => false | ⟨_ + 7, h⟩ => absurd h (Nat.not_lt.2 (Nat.le_add_left _ _))

class Facts : Prop extends Facts₀ where

variable [Facts]
-- ==== ReferenceIdeal.lean ====
abbrev S1x128x768 : Shape := ⟨3, ![1, 128, 768]⟩
abbrev S2048x768 : Shape := ⟨2, ![2048, 768]⟩
abbrev S2048 : Shape := ⟨1, ![2048]⟩
abbrev S768x2048 : Shape := ⟨2, ![768, 2048]⟩
abbrev S768 : Shape := ⟨1, ![768]⟩
abbrev S1x128x2048 : Shape := ⟨3, ![1, 128, 2048]⟩
abbrev S1x1x2048 : Shape := ⟨3, ![1, 1, 2048]⟩
abbrev S_ : Shape := ⟨0, ![]⟩
abbrev S1x128x2048x1 : Shape := ⟨4, ![1, 128, 2048, 1]⟩
abbrev S1x1x2048x768 : Shape := ⟨4, ![1, 1, 2048, 768]⟩
abbrev S1x128x2048x768 : Shape := ⟨4, ![1, 128, 2048, 768]⟩
abbrev S1x1x768 : Shape := ⟨3, ![1, 1, 768]⟩

abbrev nBuf : Space → Nat
  | .hbm => 23
  | .vmem => 0
  | .smem => 0
  | _ => 0

abbrev bufTy : (tb : Table) → Fin (tcTables nBuf tb) → BufTy
  | .hbm, ⟨0, _⟩ => ⟨S1x128x768, .f32⟩
  | .hbm, ⟨1, _⟩ => ⟨S2048x768, .f32⟩
  | .hbm, ⟨2, _⟩ => ⟨S2048, .f32⟩
  | .hbm, ⟨3, _⟩ => ⟨S768x2048, .f32⟩
  | .hbm, ⟨4, _⟩ => ⟨S768, .f32⟩
  | .hbm, ⟨5, _⟩ => ⟨S1x128x2048, .f32⟩
  | .hbm, ⟨6, _⟩ => ⟨S1x1x2048, .f32⟩
  | .hbm, ⟨7, _⟩ => ⟨S1x128x2048, .f32⟩
  | .hbm, ⟨8, _⟩ => ⟨S1x128x2048, .f32⟩
  | .hbm, ⟨9, _⟩ => ⟨S_, .f32⟩
  | .hbm, ⟨10, _⟩ => ⟨S1x128x2048, .f32⟩
  | .hbm, ⟨11, _⟩ => ⟨S1x128x2048, .f32⟩
  | .hbm, ⟨12, _⟩ => ⟨S1x128x2048x1, .f32⟩
  | .hbm, ⟨13, _⟩ => ⟨S2048x768, .f32⟩
  | .hbm, ⟨14, _⟩ => ⟨S1x1x2048x768, .f32⟩
  | .hbm, ⟨15, _⟩ => ⟨S1x128x2048x768, .f32⟩
  | .hbm, ⟨16, _⟩ => ⟨S1x128x2048x768, .f32⟩
  | .hbm, ⟨17, _⟩ => ⟨S1x128x2048x768, .f32⟩
  | .hbm, ⟨18, _⟩ => ⟨S_, .f32⟩
  | .hbm, ⟨19, _⟩ => ⟨S1x128x768, .f32⟩
  | .hbm, ⟨20, _⟩ => ⟨S1x1x768, .f32⟩
  | .hbm, ⟨21, _⟩ => ⟨S1x128x768, .f32⟩
  | .hbm, ⟨22, _⟩ => ⟨S1x128x768, .f32⟩
  | _, _ => ⟨S1x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S1x128x2048_0_1_2 : S1x1x2048.BroadcastsInDim S1x128x2048 (![0, 1, 2] : Fin 3 → Fin S1x128x2048.rank)
  bcast_S_S1x128x2048 : S_.BroadcastsInDim S1x128x2048 (![] : Fin 0 → Fin S1x128x2048.rank)
  bcast_S1x128x2048_S1x128x2048x1_0_1_2 : S1x128x2048.BroadcastsInDim S1x128x2048x1 (![0, 1, 2] : Fin 3 → Fin S1x128x2048x1.rank)
  transposes_S768x2048_S2048x768_1_0 : S768x2048.Transposes [1, 0] S2048x768
  bcast_S2048x768_S1x1x2048x768_2_3 : S2048x768.BroadcastsInDim S1x1x2048x768 (![2, 3] : Fin 2 → Fin S1x1x2048x768.rank)
  bcast_S1x128x2048x1_S1x128x2048x768_0_1_2_3 : S1x128x2048x1.BroadcastsInDim S1x128x2048x768 (![0, 1, 2, 3] : Fin 4 → Fin S1x128x2048x768.rank)
  bcast_S1x1x2048x768_S1x128x2048x768_0_1_2_3 : S1x1x2048x768.BroadcastsInDim S1x128x2048x768 (![0, 1, 2, 3] : Fin 4 → Fin S1x128x2048x768.rank)
  reducesTo_S1x128x2048x768_S1x128x768_d2 : S1x128x2048x768.ReducesTo [2] S1x128x768
  h_S_ : 0 < S_.numel
  bcast_S768_S1x1x768_2 : S768.BroadcastsInDim S1x1x768 (![2] : Fin 1 → Fin S1x1x768.rank)
  bcast_S1x1x768_S1x128x768_0_1_2 : S1x1x768.BroadcastsInDim S1x128x768 (![0, 1, 2] : Fin 3 → Fin S1x128x768.rank)
  dot_S1x128x768_S2048x768_S1x128x2048_2_1_01_0_n_n_wf : DotDims.WF S1x128x768 S2048x768 S1x128x2048 [2] [1] [0, 1] [0] [] []

variable [Facts₀]

def dot_S1x128x768_S2048x768_S1x128x2048_2_1_01_0_n_n : DotDims S1x128x768 S2048x768 S1x128x2048 where
  lhsContracting := [2]
  rhsContracting := [1]
  lhsNonContracting := [0, 1]
  rhsNonContracting := [0]
  lhsBatch := []
  rhsBatch := []
  wf := dot_S1x128x768_S2048x768_S1x128x2048_2_1_01_0_n_n_wf

class Facts : Prop extends Facts₀ where

variable [Facts]
-- ==== Proof.SaeSpec.lean ====
/-
  The sparse autoencoder's forward pass as functions of its five argument arrays, index by index, on the extended reals.

  The encoder's activation of token `s` at hidden unit `h` is `max (∑ₖ x[0,s,k] · We[h,k] + be[h]) 0`. The feature
  array holds, at `(0, s, h, d)`, that activation times the decoder weight `Wd[d,h]`; the reconstruction holds, at
  `(0, s, d)`, the sum of these products over all 2048 hidden units, started from zero, plus the decoder bias `bd[d]`.

  The 2048 hidden units are cut into 16 tiles of 128: a sum over all of them is the sum, over the tiles, of each
  tile's partial sum (addition on the extended reals is commutative and associative, so no finiteness is needed).
-/
import Idealize.ShloMosaic.PureOps.Ideal
import Idealize.ShloMosaic.Lib.ValueIdx
import Mathlib.Algebra.BigOperators.Fin
import Mathlib.Logic.Equiv.Fin.Basic

noncomputable section

open scoped BigOperators

namespace Cert.Sae

open Idealize.ShloMosaic Idealize.ShloMosaic.ValueIdx

/-- The token activations `[1, 128, 768]`. -/
abbrev TX := (⟨3, ![1, 128, 768]⟩ : Shape).Idx → Ideal .f32
/-- A weight matrix `[2048, 768]` (the encoder's, or the decoder's transposed). -/
abbrev TW := (⟨2, ![2048, 768]⟩ : Shape).Idx → Ideal .f32
/-- The encoder bias `[2048]`. -/
abbrev TBe := (⟨1, ![2048]⟩ : Shape).Idx → Ideal .f32
/-- The decoder weight `[768, 2048]`. -/
abbrev TWd := (⟨2, ![768, 2048]⟩ : Shape).Idx → Ideal .f32
/-- The decoder bias `[768]`. -/
abbrev TBd := (⟨1, ![768]⟩ : Shape).Idx → Ideal .f32

/-- The f32 zero word, as an extended real. -/
abbrev z32 : Ideal .f32 := Ideal.ofBits .f32 0x00000000#32

/-- The encoder's activation of token `s` at hidden unit `h`: the rectified affine form. -/
def act (x : TX) (We : TW) (be : TBe) (s : Fin 128) (h : Fin 2048) : Ideal .f32 :=
  max ((∑ k : Fin 768, x (ix3 (0 : Fin 1) s k) * We (ix2 h k)) + be (ix1 h)) z32

/-- One feature entry: the activation times the decoder weight of that hidden unit and output coordinate. -/
def term (x : TX) (We : TW) (be : TBe) (Wd : TWd) (s : Fin 128) (d : Fin 768) (h : Fin 2048) : Ideal .f32 :=
  act x We be s h * Wd (ix2 d h)

/-- A feature entry depends only on its three coordinates. -/
theorem term_congr (x : TX) (We : TW) (be : TBe) (Wd : TWd) {s s' : Fin 128} {d d' : Fin 768} {h h' : Fin 2048}
    (hs : s = s') (hd : d = d') (hh : h = h') : term x We be Wd s d h = term x We be Wd s' d' h' := by
  subst hs hd hh; rfl

/-- The feature array `[1, 128, 2048, 768]`. -/
def feat (x : TX) (We : TW) (be : TBe) (Wd : TWd) : (⟨4, ![1, 128, 2048, 768]⟩ : Shape).Idx → Ideal .f32 :=
  fun i => term x We be Wd (i 1) (i 3) (i 2)

/-- The reconstruction `[1, 128, 768]`: the features summed over the hidden axis from zero, plus the decoder bias. -/
def recon (x : TX) (We : TW) (be : TBe) (Wd : TWd) (bd : TBd) : (⟨3, ![1, 128, 768]⟩ : Shape).Idx → Ideal .f32 :=
  fun i => (z32 + ∑ h : Fin 2048, term x We be Wd (i 1) (i 2) h) + bd (ix1 (i 2))

/-- Hidden unit `hh` of tile `j`: unit `128·j + hh`. -/
def hid (j : Fin 16) (hh : Fin 128) : Fin 2048 := ⟨128 * j.val + hh.val, by have := j.isLt; have := hh.isLt; omega⟩

/-- Token `r` of token tile `s`: token `16·s + r`. -/
def tok (s : Fin 8) (r : Fin 16) : Fin 128 := ⟨16 * s.val + r.val, by have := s.isLt; have := r.isLt; omega⟩

/-- The token tile of grid point `n` (the grid runs over 8 token tiles, and for each over the 16 hidden tiles). -/
def sN (n : ℕ) : Fin 8 := ⟨n / 16 % 8, Nat.mod_lt _ (by decide)⟩
/-- The hidden tile of grid point `n`. -/
def jN (n : ℕ) : Fin 16 := ⟨n % 16, Nat.mod_lt _ (by decide)⟩

/-- A sum over the 2048 hidden units is the sum over the 16 tiles of the sums over each tile's 128 units. -/
theorem sum_tiles {M : Type*} [AddCommMonoid M] (f : Fin 2048 → M) :
    ∑ h : Fin 2048, f h = ∑ j : Fin 16, ∑ hh : Fin 128, f (hid j hh) := by
  have e : ∑ h : Fin 2048, f h = ∑ p : Fin 16 × Fin 128, f (hid p.1 p.2) := by
    refine (Equiv.sum_comp (finProdFinEquiv (m := 16) (n := 128)) f).symm.trans ?_
    refine Finset.sum_congr rfl fun p _ => congrArg f (Fin.ext ?_)
    show p.2.val + 128 * p.1.val = 128 * p.1.val + p.2.val
    omega
  rw [e, Fintype.sum_prod_type]

/-- Tile `j`'s partial sum of the reconstruction at token `s`, coordinate `d`. -/
def part (x : TX) (We : TW) (be : TBe) (Wd : TWd) (s : Fin 128) (d : Fin 768) (j : Fin 16) : Ideal .f32 :=
  ∑ hh : Fin 128, term x We be Wd s d (hid j hh)

/-- The reconstruction's sum over the hidden axis is the sum of the 16 tiles' partial sums. -/
theorem sum_term_eq_parts (x : TX) (We : TW) (be : TBe) (Wd : TWd) (s : Fin 128) (d : Fin 768) :
    ∑ h : Fin 2048, term x We be Wd s d h = ∑ j : Fin 16, part x We be Wd s d j :=
  sum_tiles _

/-- A tile's partial sum depends only on its token, coordinate and tile. -/
theorem part_congr (x : TX) (We : TW) (be : TBe) (Wd : TWd) {s s' : Fin 128} {d d' : Fin 768} {j j' : Fin 16}
    (hs : s = s') (hd : d = d') (hj : j = j') : part x We be Wd s d j = part x We be Wd s' d' j' := by
  subst hs hd hj; rfl

/-- The reconstruction at an index whose token coordinate is `s` and output coordinate `d`, by tiles. -/
theorem recon_apply_of (x : TX) (We : TW) (be : TBe) (Wd : TWd) (bd : TBd) (i : (⟨3, ![1, 128, 768]⟩ : Shape).Idx)
    {s : Fin 128} {d : Fin 768} (hs : i 1 = s) (hd : i 2 = d) :
    recon x We be Wd bd i = (z32 + ∑ j : Fin 16, part x We be Wd s d j) + bd (ix1 d) := by
  have e : recon x We be Wd bd i = (z32 + ∑ h : Fin 2048, term x We be Wd s d h) + bd (ix1 d) := by
    subst hs hd; rfl
  rw [e, sum_term_eq_parts]

end Cert.Sae

end
-- ==== Proof.SaePieces.lean ====
/-
  What the kernel body leaves behind at one grid point, as pure terms of the blocks it loaded — for every float
  instance. The body reads the token block, 128 rows of each resident weight matrix (the rows of the point's hidden
  tile), the tile's slice of the encoder bias, and the accumulator; it stores the feature block, the updated
  accumulator and, at the last hidden tile, the reconstruction block. Each stored value is one store through the
  whole buffer, so reading it back gives the store's payload.
-/
import proofs.«149003_j37666863186493_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 128 rows of a resident `[2048, 768]` matrix that the body loads at grid point `i`: the rows of its hidden tile. -/
abbrev rowsAt (i : grid0.Coords) (X : Vec F S2048x768 .f32) : Vec F S128x768 .f32 :=
  View.ld X (Rect.unit (s := S2048x768) (k0_off1 i) S128x768.size (k0_off1_inb i))

/-- At the first hidden tile the accumulator is zeroed, read back, and left at the zero block plus the tile's partial product. -/
theorem sout0_A_0_eq (c : Dev nD) (i : grid0.Coords) (arg2 : Memref sig .tc .vmem S1x16x768 .f32) (harg2 : arg2.IsWhole) (arg3 : Memref sig .tc .vmem S2048x768 .f32) (harg3 : arg3.IsWhole) (arg4 : Memref sig .tc .vmem S1x128 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x16x768 .f32) (harg7 : arg7.IsWhole) (arg8 : Memref sig .tc .vmem S1x16x128x768 .f32) (harg8 : arg8.IsWhole) (arg9 : Memref sig .tc .vmem S16x768 .f32) (harg9 : arg9.IsWhole) (hc0 : cond0_0 i) (hc1 : ¬cond0_1 i)
    (x0 : Vec F S1x16x768 .f32) (x1 : Vec F S2048x768 .f32) (x2 : Vec F S1x128 .f32) (x3 : Vec F S2048x768 .f32) (x4 : Vec F S1x768 .f32) :
    sout0_A_0 c i arg2 harg2 arg3 harg3 arg4 harg4 arg5 harg5 arg6 harg6 arg7 harg7 arg8 harg8 arg9 harg9 hc0 hc1 x0 x1 x2 x3 x4 = k0_pay1 (k0_pay7 x0 (rowsAt i x1) x2 (rowsAt i x3) (k0_pay3 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_run_names
  rw [View.canon_cons_unit_zero (S := S16x768) hz2, View.readCov_unit_zero (S := S16x768) _ hz2]
  simp only [View.readAt_eq_ld, harg2.read_unread, harg3.read_unread, harg4.read_unread, harg5.read_unread, harg6.read_unread, harg9.read_unread, View.ld_unit_zero (S := S1x16x768) hz3, View.ld_unit_zero (S := S1x128) hz2, View.ld_unit_zero (S := S16x768) hz2, View.ld_unit_zero (S := S1x768) hz2]
  try rfl

/-- At a middle hidden tile the accumulator is left at what the tile before left plus the tile's partial product. -/
theorem sout0_B_0_eq (c : Dev nD) (i : grid0.Coords) (arg2 : Memref sig .tc .vmem S1x16x768 .f32) (harg2 : arg2.IsWhole) (arg3 : Memref sig .tc .vmem S2048x768 .f32) (harg3 : arg3.IsWhole) (arg4 : Memref sig .tc .vmem S1x128 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x16x768 .f32) (harg7 : arg7.IsWhole) (arg8 : Memref sig .tc .vmem S1x16x128x768 .f32) (harg8 : arg8.IsWhole) (arg9 : Memref sig .tc .vmem S16x768 .f32) (harg9 : arg9.IsWhole) (hc0 : ¬cond0_0 i) (hc1 : ¬cond0_1 i)
    (x0 : Vec F S1x16x768 .f32) (x1 : Vec F S2048x768 .f32) (x2 : Vec F S1x128 .f32) (x3 : Vec F S2048x768 .f32) (x4 : Vec F S1x768 .f32) (xs0 : Vec F S16x768 .f32) :
    sout0_B_0 c i arg2 harg2 arg3 harg3 arg4 harg4 arg5 harg5 arg6 harg6 arg7 harg7 arg8 harg8 arg9 harg9 hc0 hc1 x0 x1 x2 x3 x4 xs0 = k0_pay1 (k0_pay7 x0 (rowsAt i x1) x2 (rowsAt i x3) xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0)]
  unfold kernelRun0_B
  dsimp only
  sl_unfold_run_names
  rw [View.canon_unit_zero hz2]
  simp only [View.readAt_eq_ld, harg2.read_unread, harg3.read_unread, harg4.read_unread, harg5.read_unread, harg6.read_unread, harg9.read_unread, View.ld_unit_zero (S := S1x16x768) hz3, View.ld_unit_zero (S := S1x128) hz2, View.ld_unit_zero (S := S16x768) hz2, View.ld_unit_zero (S := S1x768) hz2]
  try rfl

/-- At the last hidden tile the accumulator is updated the same way. -/
theorem sout0_C_0_eq (c : Dev nD) (i : grid0.Coords) (arg2 : Memref sig .tc .vmem S1x16x768 .f32) (harg2 : arg2.IsWhole) (arg3 : Memref sig .tc .vmem S2048x768 .f32) (harg3 : arg3.IsWhole) (arg4 : Memref sig .tc .vmem S1x128 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x16x768 .f32) (harg7 : arg7.IsWhole) (arg8 : Memref sig .tc .vmem S1x16x128x768 .f32) (harg8 : arg8.IsWhole) (arg9 : Memref sig .tc .vmem S16x768 .f32) (harg9 : arg9.IsWhole) (hc0 : ¬cond0_0 i) (hc1 : cond0_1 i)
    (x0 : Vec F S1x16x768 .f32) (x1 : Vec F S2048x768 .f32) (x2 : Vec F S1x128 .f32) (x3 : Vec F S2048x768 .f32) (x4 : Vec F S1x768 .f32) (xs0 : Vec F S16x768 .f32) :
    sout0_C_0 c i arg2 harg2 arg3 harg3 arg4 harg4 arg5 harg5 arg6 harg6 arg7 harg7 arg8 harg8 arg9 harg9 hc0 hc1 x0 x1 x2 x3 x4 xs0 = k0_pay1 (k0_pay7 x0 (rowsAt i x1) x2 (rowsAt i x3) xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0)]
  unfold kernelRun0_C
  dsimp only
  sl_unfold_run_names
  rw [View.canon_unit_zero hz2]
  simp only [View.readAt_eq_ld, harg2.read_unread, harg3.read_unread, harg4.read_unread, harg5.read_unread, harg6.read_unread, harg9.read_unread, View.ld_unit_zero (S := S1x16x768) hz3, View.ld_unit_zero (S := S1x128) hz2, View.ld_unit_zero (S := S16x768) hz2, View.ld_unit_zero (S := S1x768) hz2]
  try rfl

/-- The feature block the body stores is the outer-product payload of the point's loaded blocks, whatever the control case. -/
theorem out0_A_6_eq (c : Dev nD) (i : grid0.Coords) (arg2 : Memref sig .tc .vmem S1x16x768 .f32) (harg2 : arg2.IsWhole) (arg3 : Memref sig .tc .vmem S2048x768 .f32) (harg3 : arg3.IsWhole) (arg4 : Memref sig .tc .vmem S1x128 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x16x768 .f32) (harg7 : arg7.IsWhole) (arg8 : Memref sig .tc .vmem S1x16x128x768 .f32) (harg8 : arg8.IsWhole) (arg9 : Memref sig .tc .vmem S16x768 .f32) (harg9 : arg9.IsWhole) (hc0 : cond0_0 i) (hc1 : ¬cond0_1 i)
    (x0 : Vec F S1x16x768 .f32) (x1 : Vec F S2048x768 .f32) (x2 : Vec F S1x128 .f32) (x3 : Vec F S2048x768 .f32) (x4 : Vec F S1x768 .f32) :
    out0_A_6 c i arg2 harg2 arg3 harg3 arg4 harg4 arg5 harg5 arg6 harg6 arg7 harg7 arg8 harg8 arg9 harg9 hc0 hc1 x0 x1 x2 x3 x4 = k0_pay6 x0 (rowsAt i x1) x2 (rowsAt i x3) := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4)]
  unfold kernelRun0_A
  dsimp only
  sl_unfold_run_names
  rw [View.canon_unit_zero hz4]
  simp only [View.readAt_eq_ld, harg2.read_unread, harg3.read_unread, harg4.read_unread, harg5.read_unread, harg6.read_unread, harg9.read_unread, View.ld_unit_zero (S := S1x16x768) hz3, View.ld_unit_zero (S := S1x128) hz2, View.ld_unit_zero (S := S16x768) hz2, View.ld_unit_zero (S := S1x768) hz2]
  try rfl

/-- The feature block the body stores is the outer-product payload of the point's loaded blocks, whatever the control case. -/
theorem out0_B_6_eq (c : Dev nD) (i : grid0.Coords) (arg2 : Memref sig .tc .vmem S1x16x768 .f32) (harg2 : arg2.IsWhole) (arg3 : Memref sig .tc .vmem S2048x768 .f32) (harg3 : arg3.IsWhole) (arg4 : Memref sig .tc .vmem S1x128 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x16x768 .f32) (harg7 : arg7.IsWhole) (arg8 : Memref sig .tc .vmem S1x16x128x768 .f32) (harg8 : arg8.IsWhole) (arg9 : Memref sig .tc .vmem S16x768 .f32) (harg9 : arg9.IsWhole) (hc0 : ¬cond0_0 i) (hc1 : ¬cond0_1 i)
    (x0 : Vec F S1x16x768 .f32) (x1 : Vec F S2048x768 .f32) (x2 : Vec F S1x128 .f32) (x3 : Vec F S2048x768 .f32) (x4 : Vec F S1x768 .f32) (xs0 : Vec F S16x768 .f32) :
    out0_B_6 c i arg2 harg2 arg3 harg3 arg4 harg4 arg5 harg5 arg6 harg6 arg7 harg7 arg8 harg8 arg9 harg9 hc0 hc1 x0 x1 x2 x3 x4 xs0 = k0_pay6 x0 (rowsAt i x1) x2 (rowsAt i x3) := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 xs0)]
  unfold kernelRun0_B
  dsimp only
  sl_unfold_run_names
  rw [View.canon_unit_zero hz4]
  simp only [View.readAt_eq_ld, harg2.read_unread, harg3.read_unread, harg4.read_unread, harg5.read_unread, harg6.read_unread, harg9.read_unread, View.ld_unit_zero (S := S1x16x768) hz3, View.ld_unit_zero (S := S1x128) hz2, View.ld_unit_zero (S := S16x768) hz2, View.ld_unit_zero (S := S1x768) hz2]
  try rfl

/-- The feature block the body stores is the outer-product payload of the point's loaded blocks, whatever the control case. -/
theorem out0_C_6_eq (c : Dev nD) (i : grid0.Coords) (arg2 : Memref sig .tc .vmem S1x16x768 .f32) (harg2 : arg2.IsWhole) (arg3 : Memref sig .tc .vmem S2048x768 .f32) (harg3 : arg3.IsWhole) (arg4 : Memref sig .tc .vmem S1x128 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x16x768 .f32) (harg7 : arg7.IsWhole) (arg8 : Memref sig .tc .vmem S1x16x128x768 .f32) (harg8 : arg8.IsWhole) (arg9 : Memref sig .tc .vmem S16x768 .f32) (harg9 : arg9.IsWhole) (hc0 : ¬cond0_0 i) (hc1 : cond0_1 i)
    (x0 : Vec F S1x16x768 .f32) (x1 : Vec F S2048x768 .f32) (x2 : Vec F S1x128 .f32) (x3 : Vec F S2048x768 .f32) (x4 : Vec F S1x768 .f32) (xs0 : Vec F S16x768 .f32) :
    out0_C_6 c i arg2 harg2 arg3 harg3 arg4 harg4 arg5 harg5 arg6 harg6 arg7 harg7 arg8 harg8 arg9 harg9 hc0 hc1 x0 x1 x2 x3 x4 xs0 = k0_pay6 x0 (rowsAt i x1) x2 (rowsAt i x3) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 xs0)]
  unfold kernelRun0_C
  dsimp only
  sl_unfold_run_names
  rw [View.canon_unit_zero hz4]
  simp only [View.readAt_eq_ld, harg2.read_unread, harg3.read_unread, harg4.read_unread, harg5.read_unread, harg6.read_unread, harg9.read_unread, View.ld_unit_zero (S := S1x16x768) hz3, View.ld_unit_zero (S := S1x128) hz2, View.ld_unit_zero (S := S16x768) hz2, View.ld_unit_zero (S := S1x768) hz2]
  try rfl

/-- At the last hidden tile the reconstruction block is the updated accumulator, read back, plus the decoder bias row. -/
theorem out0_C_5_eq (c : Dev nD) (i : grid0.Coords) (arg2 : Memref sig .tc .vmem S1x16x768 .f32) (harg2 : arg2.IsWhole) (arg3 : Memref sig .tc .vmem S2048x768 .f32) (harg3 : arg3.IsWhole) (arg4 : Memref sig .tc .vmem S1x128 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x16x768 .f32) (harg7 : arg7.IsWhole) (arg8 : Memref sig .tc .vmem S1x16x128x768 .f32) (harg8 : arg8.IsWhole) (arg9 : Memref sig .tc .vmem S16x768 .f32) (harg9 : arg9.IsWhole) (hc0 : ¬cond0_0 i) (hc1 : cond0_1 i)
    (x0 : Vec F S1x16x768 .f32) (x1 : Vec F S2048x768 .f32) (x2 : Vec F S1x128 .f32) (x3 : Vec F S2048x768 .f32) (x4 : Vec F S1x768 .f32) (xs0 : Vec F S16x768 .f32) :
    out0_C_5 c i arg2 harg2 arg3 harg3 arg4 harg4 arg5 harg5 arg6 harg6 arg7 harg7 arg8 harg8 arg9 harg9 hc0 hc1 x0 x1 x2 x3 x4 xs0 = k0_pay2 (k0_pay1 (k0_pay7 x0 (rowsAt i x1) x2 (rowsAt i x3) xs0)) x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0)]
  unfold kernelRun0_C
  dsimp only
  sl_unfold_run_names
  rw [View.canon_unit_zero hz3, View.readCov_unit_zero (S := S16x768) _ hz2]
  simp only [View.readAt_eq_ld, harg2.read_unread, harg3.read_unread, harg4.read_unread, harg5.read_unread, harg6.read_unread, harg9.read_unread, View.ld_unit_zero (S := S1x16x768) hz3, View.ld_unit_zero (S := S1x128) hz2, View.ld_unit_zero (S := S16x768) hz2, View.ld_unit_zero (S := S1x768) hz2]
  try rfl

end Cert.KernelIdeal.Pieces

end
-- ==== Proof.SaeBlocks.lean ====
/-
  The blocks the kernel body finds at a grid point, read off the argument arrays.

  Grid point `t` works on token tile `t / 16` and hidden tile `t % 16`. The token window's block holds the 16 tokens of
  the token tile; the encoder-bias window's block the 128 biases of the hidden tile; the two weight windows and the
  decoder-bias window hold their whole arrays, of which the body loads the 128 rows of the hidden tile. Before the
  kernel runs, the host program reshapes the two bias vectors to one-row matrices and transposes the decoder weight, so
  row `h` of the transposed weight is column `h` of the decoder weight.
-/
import proofs.«149003_j37666863186493_2_alg».proof.Proof.Gen.KernelIdeal.Frame
import proofs.«149003_j37666863186493_2_alg».proof.Proof.SaeSpec
import proofs.«149003_j37666863186493_2_alg».proof.Proof.SaePieces
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Sae

variable {F : FTy → Type} [FloatOps F]
variable (m : (ℓ : Loc nD τ sig) → Buf (Elt F) ℓ)

/-! ## The printed index maps, decided over the 128 grid points -/

theorem idx0 : ∀ t : Fin cfg0.N, win0_0.index t (0 : Fin 3) = 0 ∧ win0_0.index t (1 : Fin 3) = t.val / 16 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 16 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = 0 ∧ win0_5.index t (1 : Fin 3) = t.val / 16 ∧ win0_5.index t (2 : Fin 3) = 0 :=
  (by decide +kernel : ∀ t : Fin grid0.N, _)
theorem idx6 : ∀ t : Fin cfg0.N, win0_6.index t (0 : Fin 4) = 0 ∧ win0_6.index t (1 : Fin 4) = t.val / 16
    ∧ win0_6.index t (2 : Fin 4) = t.val % 16 ∧ win0_6.index t (3 : Fin 4) = 0 :=
  (by decide +kernel : ∀ t : Fin grid0.N, _)
/-- The first row the body loads of a resident weight matrix at point `t`: row `128 · (t % 16)`. -/
theorem off1 : ∀ t : Fin cfg0.N, k0_off1 (grid0.coords t) (0 : Fin 2) = 128 * (t.val % 16) ∧ k0_off1 (grid0.coords t) (1 : Fin 2) = 0 :=
  (by decide +kernel : ∀ t : Fin grid0.N, _)

/-! ## What the host operations before the kernel leave -/

theorem V_bias_enc (c : Dev nD) :
    (V m c main_v0 : S1x2048.Idx → Elt F .f32) = shapeCast S1x2048 (m ((c : Thread nD τ).loc main_arg2)) shapeCasts_S2048_S1x2048 := by
  dsimp only [V, hostOps0]; after_results; rfl

theorem V_bias_dec (c : Dev nD) :
    (V m c main_v1 : S1x768.Idx → Elt F .f32) = shapeCast S1x768 (m ((c : Thread nD τ).loc main_arg4)) shapeCasts_S768_S1x768 := by
  dsimp only [V, hostOps0]; after_results; rfl

theorem V_dec_T (c : Dev nD) :
    (V m c main_v2 : S2048x768.Idx → Elt F .f32) = transpose S2048x768 [1, 0] (m ((c : Thread nD τ).loc main_arg3)) transposes_S768x2048_S2048x768_1_0 := by
  dsimp only [V, hostOps0]; after_results

/-! ## The blocks at a point, entry by entry -/

/-- The token block at point `t` holds the 16 tokens of token tile `t / 16`. -/
theorem tokens_apply (c : Dev nD) (t : Fin cfg0.N) (u : Fin 1) (r : Fin 16) (k : Fin 768) :
    (iblk m c 0 t : Vec F S1x16x768 .f32) (ix3 u r k)
      = m ((c : Thread nD τ).loc main_arg0) (ix3 (0 : Fin 1) (tok (sN t.val) r) k) := by
  obtain ⟨e0, e1, e2⟩ := idx0 t
  have hN : t.val < 128 := lt_of_lt_of_eq t.isLt N_0
  show V m c main_arg0 (((cfg0.win 0).blk t).view.emb (ix3 u r k)) = _
  rw [V_main_arg0]
  refine congrArg _ (funext fun a => Fin.ext ?_)
  match a with
  | ⟨0, _⟩ => show win0_0.index t (0 : Fin 3) * 1 + 1 * u.val = 0; have := u.isLt; omega
  | ⟨1, _⟩ => show win0_0.index t (1 : Fin 3) * 16 + 1 * r.val = 16 * (t.val / 16 % 8) + r.val; omega
  | ⟨2, _⟩ => show win0_0.index t (2 : Fin 3) * 768 + 1 * k.val = k.val; omega

/-- The encoder rows the body loads at point `t` are the rows of hidden tile `t % 16`. -/
theorem enc_rows_apply (c : Dev nD) (t : Fin cfg0.N) (h : Fin 128) (k : Fin 768) :
    Pieces.rowsAt (grid0.coords t) (iblk m c 1 t) (ix2 h k)
      = m ((c : Thread nD τ).loc main_arg1) (ix2 (hid (jN t.val) h) k) := by
  obtain ⟨e0, e1⟩ := idx1 t
  obtain ⟨o0, o1⟩ := off1 t
  show V m c main_arg1 (((cfg0.win 1).blk t).view.emb ((Rect.unit (s := S2048x768) (k0_off1 (grid0.coords t)) S128x768.size (k0_off1_inb (grid0.coords t))).idx (ix2 h k))) = _
  rw [V_main_arg1]
  refine congrArg _ (funext fun a => Fin.ext ?_)
  match a with
  | ⟨0, _⟩ => show win0_1.index t (0 : Fin 2) * 2048 + 1 * (k0_off1 (grid0.coords t) (0 : Fin 2) + 1 * h.val) = 128 * (t.val % 16) + h.val; omega
  | ⟨1, _⟩ => show win0_1.index t (1 : Fin 2) * 768 + 1 * (k0_off1 (grid0.coords t) (1 : Fin 2) + 1 * k.val) = k.val; omega

/-- The encoder-bias block at point `t` holds the biases of hidden tile `t % 16`. -/
theorem bias_enc_apply (c : Dev nD) (t : Fin cfg0.N) (u : Fin 1) (h : Fin 128) :
    (iblk m c 2 t : Vec F S1x128 .f32) (ix2 u h) = m ((c : Thread nD τ).loc main_arg2) (ix1 (hid (jN t.val) h)) := by
  obtain ⟨e0, e1⟩ := idx2 t
  show V m c main_v0 (((cfg0.win 2).blk t).view.emb (ix2 u h)) = _
  refine (congrFun (V_bias_enc m c) _).trans ?_
  refine shapeCast_apply _ shapeCasts_S2048_S1x2048 _ (ix1 (hid (jN t.val) h)) ?_
  rw [Shape.rowMajor_val_two, Shape.rowMajor_val_one]
  show 128 * (t.val % 16) + h.val = (win0_2.index t (0 : Fin 2) * 1 + 1 * u.val) * 2048 + (win0_2.index t (1 : Fin 2) * 128 + 1 * h.val)
  have := u.isLt; omega

/-- The decoder rows the body loads at point `t`: row `h` of the transposed weight is column `h` of the decoder weight. -/
theorem dec_rows_apply (c : Dev nD) (t : Fin cfg0.N) (h : Fin 128) (d : Fin 768) :
    Pieces.rowsAt (grid0.coords t) (iblk m c 3 t) (ix2 h d)
      = m ((c : Thread nD τ).loc main_arg3) (ix2 d (hid (jN t.val) h)) := by
  obtain ⟨e0, e1⟩ := idx3 t
  obtain ⟨o0, o1⟩ := off1 t
  show V m c main_v2 (((cfg0.win 3).blk t).view.emb ((Rect.unit (s := S2048x768) (k0_off1 (grid0.coords t)) S128x768.size (k0_off1_inb (grid0.coords t))).idx (ix2 h d))) = _
  refine (congrFun (V_dec_T m c) _).trans ?_
  refine transpose_apply [1, 0] _ transposes_S768x2048_S2048x768_1_0 _ (ix2 d (hid (jN t.val) h)) (fun b => ?_)
  match b with
  | ⟨0, _⟩ => show 128 * (t.val % 16) + h.val = win0_3.index t (0 : Fin 2) * 2048 + 1 * (k0_off1 (grid0.coords t) (0 : Fin 2) + 1 * h.val); omega
  | ⟨1, _⟩ => show d.val = win0_3.index t (1 : Fin 2) * 768 + 1 * (k0_off1 (grid0.coords t) (1 : Fin 2) + 1 * d.val); omega

/-- The decoder-bias block is the whole bias row. -/
theorem bias_dec_apply (c : Dev nD) (t : Fin cfg0.N) (u : Fin 1) (d : Fin 768) :
    (iblk m c 4 t : Vec F S1x768 .f32) (ix2 u d) = m ((c : Thread nD τ).loc main_arg4) (ix1 d) := by
  obtain ⟨e0, e1⟩ := idx4 t
  show V m c main_v1 (((cfg0.win 4).blk t).view.emb (ix2 u d)) = _
  refine (congrFun (V_bias_dec m c) _).trans ?_
  refine shapeCast_apply _ shapeCasts_S768_S1x768 _ (ix1 d) ?_
  rw [Shape.rowMajor_val_two, Shape.rowMajor_val_one]
  show d.val = (win0_4.index t (0 : Fin 2) * 1 + 1 * u.val) * 768 + (win0_4.index t (1 : Fin 2) * 768 + 1 * d.val)
  have := u.isLt; omega

end Cert.KernelIdeal.Blocks

end
-- ==== Proof.LibOuter.lean ====
/-
  Layout operations of a broadcast outer product, read at explicit coordinates.

  An `[a, b]` array given a trailing unit axis, `[a, b, 1]`, keeps entry `(i, j)` at `(i, j, 0)`: the two row-major
  positions are the same number. That column block broadcast to `[a, b, c]` repeats entry `(i, j)` along the last
  axis; a `[1, b, c]` array broadcast to `[a, b, c]` repeats its one slab along the first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.SaePay.lean ====
/-
  The body's arithmetic read at one entry, on the extended reals.

  With the token block `x` (16 tokens), the 128 encoder rows `w` and decoder rows `v` of the hidden tile, the tile's
  bias slice `b` and the accumulator `acc`:
    activation (r, h)   = max (∑ₖ x[0,r,k] · w[h,k] + b[0,h]) 0        (a matrix product into a zero accumulator is the plain sum;
                                                                        the rounding to bf16 before it is the identity here)
    feature (0, r, h, d) = activation (r, h) · v[h,d]
    accumulator' (r, d)  = acc[r,d] + ∑ₕ activation (r, h) · v[h,d]
    reconstruction (0, r, d) = accumulator' (r, d) + bias[0,d].
-/
import proofs.«149003_j37666863186493_2_alg».proof.Proof.Gen.KernelIdeal.Skeleton
import proofs.«149003_j37666863186493_2_alg».proof.Proof.LibOuter
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The two matrix products' operand indices -/

theorem encL0 (j : S16x128.Idx) (q : dot_S16x768_S128x768_S16x128_1_1_0_0_n_n.contr.Idx) : (dot_S16x768_S128x768_S16x128_1_1_0_0_n_n.lhsIdx j q 0).val = (j 0).val := by
  unfold DotDims.lhsIdx
  rw [dif_neg (show ¬(0 : Fin S16x768.rank) ∈ dot_S16x768_S128x768_S16x128_1_1_0_0_n_n.lhsBatch by decide), dif_pos (show (0 : Fin S16x768.rank) ∈ dot_S16x768_S128x768_S16x128_1_1_0_0_n_n.lhsNonContracting by decide)]
  rfl
theorem encL1 (j : S16x128.Idx) (q : dot_S16x768_S128x768_S16x128_1_1_0_0_n_n.contr.Idx) : (dot_S16x768_S128x768_S16x128_1_1_0_0_n_n.lhsIdx j q 1).val = (q ⟨0, by decide⟩).val :=
  dot_S16x768_S128x768_S16x128_1_1_0_0_n_n.lhsIdx_val_of_single rfl j q
theorem encR0 (j : S16x128.Idx) (q : dot_S16x768_S128x768_S16x128_1_1_0_0_n_n.contr.Idx) : (dot_S16x768_S128x768_S16x128_1_1_0_0_n_n.rhsIdx j q 0).val = (j 1).val := by
  unfold DotDims.rhsIdx
  rw [dif_neg (show ¬(0 : Fin S128x768.rank) ∈ dot_S16x768_S128x768_S16x128_1_1_0_0_n_n.rhsBatch by decide), dif_pos (show (0 : Fin S128x768.rank) ∈ dot_S16x768_S128x768_S16x128_1_1_0_0_n_n.rhsNonContracting by decide)]
  rfl
theorem encR1 (j : S16x128.Idx) (q : dot_S16x768_S128x768_S16x128_1_1_0_0_n_n.contr.Idx) : (dot_S16x768_S128x768_S16x128_1_1_0_0_n_n.rhsIdx j q 1).val = (q ⟨0, by decide⟩).val :=
  dot_S16x768_S128x768_S16x128_1_1_0_0_n_n.rhsIdx_val_of_single rfl j q

theorem decL0 (j : S16x768.Idx) (q : dot_S16x128_S128x768_S16x768_1_0_0_1_n_n.contr.Idx) : (dot_S16x128_S128x768_S16x768_1_0_0_1_n_n.lhsIdx j q 0).val = (j 0).val := by
  unfold DotDims.lhsIdx
  rw [dif_neg (show ¬(0 : Fin S16x128.rank) ∈ dot_S16x128_S128x768_S16x768_1_0_0_1_n_n.lhsBatch by decide), dif_pos (show (0 : Fin S16x128.rank) ∈ dot_S16x128_S128x768_S16x768_1_0_0_1_n_n.lhsNonContracting by decide)]
  rfl
theorem decL1 (j : S16x768.Idx) (q : dot_S16x128_S128x768_S16x768_1_0_0_1_n_n.contr.Idx) : (dot_S16x128_S128x768_S16x768_1_0_0_1_n_n.lhsIdx j q 1).val = (q ⟨0, by decide⟩).val :=
  dot_S16x128_S128x768_S16x768_1_0_0_1_n_n.lhsIdx_val_of_single rfl j q
theorem decR0 (j : S16x768.Idx) (q : dot_S16x128_S128x768_S16x768_1_0_0_1_n_n.contr.Idx) : (dot_S16x128_S128x768_S16x768_1_0_0_1_n_n.rhsIdx j q 0).val = (q ⟨0, by decide⟩).val :=
  dot_S16x128_S128x768_S16x768_1_0_0_1_n_n.rhsIdx_val_of_single rfl j q
theorem decR1 (j : S16x768.Idx) (q : dot_S16x128_S128x768_S16x768_1_0_0_1_n_n.contr.Idx) : (dot_S16x128_S128x768_S16x768_1_0_0_1_n_n.rhsIdx j q 1).val = (j 1).val := by
  unfold DotDims.rhsIdx
  rw [dif_neg (show ¬(1 : Fin S128x768.rank) ∈ dot_S16x128_S128x768_S16x768_1_0_0_1_n_n.rhsBatch by decide), dif_pos (show (1 : Fin S128x768.rank) ∈ dot_S16x128_S128x768_S16x768_1_0_0_1_n_n.rhsNonContracting by decide)]
  rfl

/-- The encoder's product into the zero accumulator: entry `(p, q)` is the sum over the 768 coordinates of
    left row `p` times right row `q` (both operands contract their second axis). -/
theorem enc_matmul_apply (l : FVec Ideal S16x768 .bf16) (r : FVec Ideal S128x768 .bf16) (p : Fin 16) (q : Fin 128) :
    matmul dot_S16x768_S128x768_S16x128_1_1_0_0_n_n none l r (constant S16x128 .f32 0x00000000#32) (ix2 p q) = ∑ k : Fin 768, l (ix2 p k) * r (ix2 q k) := by
  refine (Ideal.matmul_constant_zero_apply dot_S16x768_S128x768_S16x128_1_1_0_0_n_n none l r (ix2 p q)).trans ?_
  rw [← Equiv.sum_comp (ValueIdx.contrEquiv1 dot_S16x768_S128x768_S16x128_1_1_0_0_n_n 768 rfl rfl).symm]
  refine Finset.sum_congr rfl fun k _ => ?_
  have hk := ValueIdx.contrEquiv1_symm_val dot_S16x768_S128x768_S16x128_1_1_0_0_n_n 768 rfl rfl k
  have el : dot_S16x768_S128x768_S16x128_1_1_0_0_n_n.lhsIdx (ix2 p q) ((ValueIdx.contrEquiv1 dot_S16x768_S128x768_S16x128_1_1_0_0_n_n 768 rfl rfl).symm k) = ix2 p k := funext fun a => Fin.ext (by
    match a with
    | ⟨0, _⟩ => exact encL0 _ _
    | ⟨1, _⟩ => exact (encL1 _ _).trans hk)
  have er : dot_S16x768_S128x768_S16x128_1_1_0_0_n_n.rhsIdx (ix2 p q) ((ValueIdx.contrEquiv1 dot_S16x768_S128x768_S16x128_1_1_0_0_n_n 768 rfl rfl).symm k) = ix2 q k := funext fun a => Fin.ext (by
    match a with
    | ⟨0, _⟩ => exact encR0 _ _
    | ⟨1, _⟩ => exact (encR1 _ _).trans hk)
  rw [el, er]

/-- The decoder's product into the zero accumulator: entry `(p, d)` is the sum over the tile's 128 hidden units of
    left entry `(p, h)` times right entry `(h, d)`. -/
theorem dec_matmul_apply (l : FVec Ideal S16x128 .bf16) (r : FVec Ideal S128x768 .bf16) (p : Fin 16) (d : Fin 768) :
    matmul dot_S16x128_S128x768_S16x768_1_0_0_1_n_n none l r (constant S16x768 .f32 0x00000000#32) (ix2 p d) = ∑ h : Fin 128, l (ix2 p h) * r (ix2 h d) := by
  refine (Ideal.matmul_constant_zero_apply dot_S16x128_S128x768_S16x768_1_0_0_1_n_n none l r (ix2 p d)).trans ?_
  rw [← Equiv.sum_comp (ValueIdx.contrEquiv1 dot_S16x128_S128x768_S16x768_1_0_0_1_n_n 128 rfl rfl).symm]
  refine Finset.sum_congr rfl fun k _ => ?_
  have hk := ValueIdx.contrEquiv1_symm_val dot_S16x128_S128x768_S16x768_1_0_0_1_n_n 128 rfl rfl k
  have el : dot_S16x128_S128x768_S16x768_1_0_0_1_n_n.lhsIdx (ix2 p d) ((ValueIdx.contrEquiv1 dot_S16x128_S128x768_S16x768_1_0_0_1_n_n 128 rfl rfl).symm k) = ix2 p k := funext fun a => Fin.ext (by
    match a with
    | ⟨0, _⟩ => exact decL0 _ _
    | ⟨1, _⟩ => exact (decL1 _ _).trans hk)
  have er : dot_S16x128_S128x768_S16x768_1_0_0_1_n_n.rhsIdx (ix2 p d) ((ValueIdx.contrEquiv1 dot_S16x128_S128x768_S16x768_1_0_0_1_n_n 128 rfl rfl).symm k) = ix2 k d := funext fun a => Fin.ext (by
    match a with
    | ⟨0, _⟩ => exact (decR0 _ _).trans hk
    | ⟨1, _⟩ => exact decR1 _ _)
  rw [el, er]

/-! ## The payloads at an entry -/

/-- The activation block at `(r, h)`. -/
theorem pay5_apply (x : Vec Ideal S1x16x768 .f32) (w : Vec Ideal S128x768 .f32) (b : Vec Ideal S1x128 .f32) (r : Fin 16) (h : Fin 128) :
    k0_pay5 (F := Ideal) x w b (ix2 r h)
      = max ((∑ k : Fin 768, x (ix3 (0 : Fin 1) r k) * w (ix2 h k)) + b (ix2 (0 : Fin 1) h)) (Ideal.ofBits .f32 0x00000000#32) := by
  unfold k0_pay5
  refine (maximumf_apply _ _ (ix2 r h)).trans (congrArg₂ max ((addf_apply _ _ (ix2 r h)).trans (congrArg₂ (· + ·) ?_ ?_)) rfl)
  · refine (enc_matmul_apply _ _ r h).trans (Finset.sum_congr rfl fun k _ => congrArg₂ (· * ·) ?_ rfl)
    exact shapeCast_1ab_ab_apply x shapeCasts_S1x16x768_S16x768 r k
  · refine (broadcastTo_1b_ab_apply _ broadcasts_S1x128_S16x128 r h).trans ?_
    exact congrFun (shapeCast_self b shapeCasts_S1x128_S1x128) _

/-- The feature block at `(0, r, h, d)`: the activation times the decoder row's entry. -/
theorem pay6_apply (x : Vec Ideal S1x16x768 .f32) (w : Vec Ideal S128x768 .f32) (b : Vec Ideal S1x128 .f32) (v : Vec Ideal S128x768 .f32)
    (u : Fin 1) (r : Fin 16) (h : Fin 128) (d : Fin 768) :
    k0_pay6 (F := Ideal) x w b v (ix4 u r h d) = k0_pay5 (F := Ideal) x w b (ix2 r h) * v (ix2 h d) := by
  unfold k0_pay6
  refine (shapeCast_abc_1abc_apply _ shapeCasts_S16x128x768_S1x16x128x768 u r h d).trans ?_
  refine (mulf_apply _ _ (ix3 r h d)).trans (congrArg₂ (· * ·) ?_ ?_)
  · refine (broadcastTo_ab1_abc_apply _ broadcasts_S16x128x1_S16x128x768 r h d).trans ?_
    exact shapeCast_ab_ab1_apply _ shapeCasts_S16x128_S16x128x1 r h (0 : Fin 1)
  · refine (broadcastTo_1bc_abc_apply _ broadcasts_S1x128x768_S16x128x768 r h d).trans ?_
    refine (shapeCast_ab_1ab_apply _ shapeCasts_S128x768_S1x128x768 (0 : Fin 1) h d).trans ?_
    unfold k0_pay4
    exact congrFun (shapeCast_self v shapeCasts_S128x768_S128x768) _

/-- The updated accumulator at `(r, d)`: what it held plus the tile's partial product. -/
theorem pay7_apply (x : Vec Ideal S1x16x768 .f32) (w : Vec Ideal S128x768 .f32) (b : Vec Ideal S1x128 .f32) (v : Vec Ideal S128x768 .f32)
    (acc : Vec Ideal S16x768 .f32) (r : Fin 16) (d : Fin 768) :
    k0_pay1 (k0_pay7 (F := Ideal) x w b v acc) (ix2 r d)
      = acc (ix2 r d) + ∑ h : Fin 128, k0_pay5 (F := Ideal) x w b (ix2 r h) * v (ix2 h d) := by
  unfold k0_pay1 k0_pay7
  dsimp only
  refine (congrFun (shapeCast_self _ shapeCasts_S16x768_S16x768) _).trans ?_
  refine (addf_apply _ _ (ix2 r d)).trans (congrArg₂ (· + ·) rfl ?_)
  refine (dec_matmul_apply _ _ r d).trans (Finset.sum_congr rfl fun h _ => congrArg₂ (· * ·) rfl ?_)
  unfold k0_pay4
  exact congrFun (shapeCast_self v shapeCasts_S128x768_S128x768) _

/-- The zero block the accumulator is reset to. -/
theorem pay3_apply (j : S16x768.Idx) : k0_pay3 (F := Ideal) j = Ideal.ofBits .f32 0x00000000#32 := by
  unfold k0_pay3
  exact congrFun (shapeCast_self _ shapeCasts_S16x768_S16x768) _

/-- The reconstruction block at `(0, r, d)`: the accumulator plus the decoder bias row's entry. -/
theorem pay2_apply (acc : Vec Ideal S16x768 .f32) (bias : Vec Ideal S1x768 .f32) (u : Fin 1) (r : Fin 16) (d : Fin 768) :
    k0_pay2 (F := Ideal) acc bias (ix3 u r d) = acc (ix2 r d) + bias (ix2 (0 : Fin 1) d) := by
  unfold k0_pay2
  refine (shapeCast_ab_1ab_apply _ shapeCasts_S16x768_S1x16x768 u r d).trans ?_
  refine (addf_apply _ _ (ix2 r d)).trans (congrArg₂ (· + ·) rfl ?_)
  refine (broadcastTo_1b_ab_apply _ broadcasts_S1x768_S16x768 r d).trans ?_
  exact congrFun (shapeCast_self bias shapeCasts_S1x768_S1x768) _

end Cert.KernelIdeal.Pay

end
-- ==== Proof.SaePoint.lean ====
/-
  One grid point's arithmetic in terms of the argument arrays.

  If the token block holds the tokens of token tile `s`, and the loaded weight rows and bias slice those of hidden
  tile `j`, then the body's activation block is the encoder's activation of those tokens at those hidden units, its
  feature block the corresponding feature entries, and its accumulator update adds the tile's partial sum.
-/
import proofs.«149003_j37666863186493_2_alg».proof.Proof.SaePay
import proofs.«149003_j37666863186493_2_alg».proof.Proof.SaeSpec

noncomputable section

open scoped BigOperators

namespace Cert.KernelIdeal.Point

open Cert.KernelIdeal Cert.KernelIdeal.Gen Idealize.ShloMosaic Idealize.ShloMosaic.ValueIdx Cert.Sae

variable (X : TX) (We : TW) (be : TBe) (Wd : TWd)

/-- The activation block is the encoder's activation. -/
theorem act_entry (x : Vec Ideal S1x16x768 .f32) (w : Vec Ideal S128x768 .f32) (b : Vec Ideal S1x128 .f32) (s : Fin 8) (j : Fin 16)
    (hx : ∀ (r : Fin 16) (k : Fin 768), x (ix3 (0 : Fin 1) r k) = X (ix3 (0 : Fin 1) (tok s r) k))
    (hw : ∀ (h : Fin 128) (k : Fin 768), w (ix2 h k) = We (ix2 (hid j h) k))
    (hb : ∀ h : Fin 128, b (ix2 (0 : Fin 1) h) = be (ix1 (hid j h)))
    (r : Fin 16) (h : Fin 128) :
    k0_pay5 (F := Ideal) x w b (ix2 r h) = act X We be (tok s r) (hid j h) := by
  refine (Pay.pay5_apply x w b r h).trans ?_
  unfold act
  refine congrArg₂ max (congrArg₂ (· + ·) (Finset.sum_congr rfl fun k _ => ?_) (hb h)) rfl
  rw [hx r k, hw h k]

/-- The feature block holds the feature entries of the point's tokens and hidden units. -/
theorem feat_entry (x : Vec Ideal S1x16x768 .f32) (w : Vec Ideal S128x768 .f32) (b : Vec Ideal S1x128 .f32) (v : Vec Ideal S128x768 .f32) (s : Fin 8) (j : Fin 16)
    (hx : ∀ (r : Fin 16) (k : Fin 768), x (ix3 (0 : Fin 1) r k) = X (ix3 (0 : Fin 1) (tok s r) k))
    (hw : ∀ (h : Fin 128) (k : Fin 768), w (ix2 h k) = We (ix2 (hid j h) k))
    (hb : ∀ h : Fin 128, b (ix2 (0 : Fin 1) h) = be (ix1 (hid j h)))
    (hv : ∀ (h : Fin 128) (d : Fin 768), v (ix2 h d) = Wd (ix2 d (hid j h)))
    (u : Fin 1) (r : Fin 16) (h : Fin 128) (d : Fin 768) :
    k0_pay6 (F := Ideal) x w b v (ix4 u r h d) = term X We be Wd (tok s r) d (hid j h) := by
  refine (Pay.pay6_apply x w b v u r h d).trans ?_
  unfold term
  rw [act_entry X We be x w b s j hx hw hb r h, hv h d]

/-- The accumulator update adds the hidden tile's partial sum. -/
theorem acc_entry (x : Vec Ideal S1x16x768 .f32) (w : Vec Ideal S128x768 .f32) (b : Vec Ideal S1x128 .f32) (v : Vec Ideal S128x768 .f32) (s : Fin 8) (j : Fin 16)
    (hx : ∀ (r : Fin 16) (k : Fin 768), x (ix3 (0 : Fin 1) r k) = X (ix3 (0 : Fin 1) (tok s r) k))
    (hw : ∀ (h : Fin 128) (k : Fin 768), w (ix2 h k) = We (ix2 (hid j h) k))
    (hb : ∀ h : Fin 128, b (ix2 (0 : Fin 1) h) = be (ix1 (hid j h)))
    (hv : ∀ (h : Fin 128) (d : Fin 768), v (ix2 h d) = Wd (ix2 d (hid j h)))
    (acc : Vec Ideal S16x768 .f32) (r : Fin 16) (d : Fin 768) :
    k0_pay1 (k0_pay7 (F := Ideal) x w b v acc) (ix2 r d) = acc (ix2 r d) + part X We be Wd (tok s r) d j := by
  refine (Pay.pay7_apply x w b v acc r d).trans (congrArg₂ (· + ·) rfl ?_)
  unfold part term
  refine Finset.sum_congr rfl fun h _ => ?_
  rw [act_entry X We be x w b s j hx hw hb r h, hv h d]

end Cert.KernelIdeal.Point

end
-- ==== Proof.SaeFeat.lean ====
/-
  The feature output after the run.

  Every grid point stores its own block of the feature array — tokens of its token tile, hidden units of its hidden
  tile, all 768 coordinates — and writes it back; the 128 blocks tile the array. So the array ends holding the feature
  entries of the argument arrays, index by index.
-/
import proofs.«149003_j37666863186493_2_alg».proof.Proof.Gen.KernelIdeal.Value
import proofs.«149003_j37666863186493_2_alg».proof.Proof.SaeBlocks
import proofs.«149003_j37666863186493_2_alg».proof.Proof.SaePoint

noncomputable section

open Idealize.ShloMosaic Idealize.ShloMosaic.TcCoe Idealize.SL.Sem
open Idealize.ShloMosaic.Pipeline (Dat)

namespace Cert.KernelIdeal.Feat

open Cert.KernelIdeal Cert.KernelIdeal.Gen Idealize.ShloMosaic.ValueIdx Cert.Sae

variable (m : (ℓ : Loc nD τ sig) → Buf (Elt Ideal) ℓ)

/-- The feature array of the argument arrays on core `c`. -/
abbrev featOf (c : Dev nD) : Buf (Elt Ideal) ((c : Thread nD τ).loc main_v3_1) :=
  feat (m ((c : Thread nD τ).loc main_arg0)) (m ((c : Thread nD τ).loc main_arg1)) (m ((c : Thread nD τ).loc main_arg2)) (m ((c : Thread nD τ).loc main_arg3))

/-- What a point writes back to the feature array is the outer-product payload of its blocks, in every control case. -/
theorem flushed6_pay (c : Dev nD) (t : Fin cfg0.N) :
    (dats m 0 c).flushed 6 t = (cfg0.win 6).cut (grid0.coords t) (k0_pay6 (iblk m c 0 t) (Pieces.rowsAt (grid0.coords t) (iblk m c 1 t)) (iblk m c 2 t) (Pieces.rowsAt (grid0.coords t) (iblk m c 3 t))) := by
  by_cases h0 : t.val % 16 = 0
  · have h1 : ¬t.val % 16 = 15 := by omega
    rw [Value.flushed6_A m c t h0 h1, Pieces.out0_A_6_eq]
  · by_cases h1 : t.val % 16 = 15
    · rw [Value.flushed6_C m c t h0 h1, Pieces.out0_C_6_eq]
    · rw [Value.flushed6_B m c t h0 h1, Pieces.out0_B_6_eq]

/-- So it is the point's block of the feature array of the arguments. -/
theorem flushed6_eq (c : Dev nD) (t : Fin cfg0.N) :
    (dats m 0 c).flushed 6 t = ((cfg0.win 6).blk t).view.read (Elt Ideal) (featOf m c) := by
  rw [flushed6_pay]
  obtain ⟨e0, e1, e2, e3⟩ := Blocks.idx6 t
  have hN : t.val < 128 := lt_of_lt_of_eq t.isLt N_0
  funext y
  obtain ⟨u, r, h, d, rfl⟩ : ∃ (u : Fin 1) (r : Fin 16) (h : Fin 128) (d : Fin 768), y = (ix4 u r h d : S1x16x128x768.Idx) :=
    ⟨y 0, y 1, y 2, y 3, eq_ix4 (n0 := 1) (n1 := 16) (n2 := 128) (n3 := 768) y⟩
  show k0_pay6 (F := Ideal) (iblk m c 0 t) (Pieces.rowsAt (grid0.coords t) (iblk m c 1 t)) (iblk m c 2 t) (Pieces.rowsAt (grid0.coords t) (iblk m c 3 t)) (ix4 u r h d)
    = featOf m c (((cfg0.win 6).blk t).view.emb (ix4 u r h d))
  refine (Point.feat_entry (m ((c : Thread nD τ).loc main_arg0)) (m ((c : Thread nD τ).loc main_arg1)) (m ((c : Thread nD τ).loc main_arg2)) (m ((c : Thread nD τ).loc main_arg3))
      (iblk m c 0 t) (Pieces.rowsAt (grid0.coords t) (iblk m c 1 t)) (iblk m c 2 t) (Pieces.rowsAt (grid0.coords t) (iblk m c 3 t)) (sN t.val) (jN t.val)
      (fun r k => Blocks.tokens_apply m c t 0 r k) (fun h k => Blocks.enc_rows_apply m c t h k)
      (fun h => Blocks.bias_enc_apply m c t 0 h)
      (fun h d => Blocks.dec_rows_apply m c t h d) u r h d).trans ?_
  exact term_congr _ _ _ _
    (Fin.ext (by show 16 * (t.val / 16 % 8) + r.val = win0_6.index t (1 : Fin 4) * 16 + 1 * r.val; omega))
    (Fin.ext (by show d.val = win0_6.index t (3 : Fin 4) * 768 + 1 * d.val; omega))
    (Fin.ext (by show 128 * (t.val % 16) + h.val = win0_6.index t (2 : Fin 4) * 128 + 1 * h.val; omega))

/-- An index of the feature array is in point `t`'s block iff each coordinate is in the block's range on its axis. -/
theorem mem_blk6 (t : Fin cfg0.N) (i : S1x128x2048x768.Idx) :
    i ∈ ((cfg0.win 6).blk t).view.set ↔ ∀ a : Fin 4, win0_6.index t a * S1x16x128x768.size a ≤ (i a).val
      ∧ (i a).val < win0_6.index t a * S1x16x128x768.size a + S1x16x128x768.size a := by
  show i ∈ ((View.whole main_v3_1).slice (win0_6.rect t)).set ↔ _
  rw [View.set_slice_whole, Rect.mem_set_unit]
  exact Iff.rfl

/-- Every entry is in the block of the point of its token tile and hidden tile. -/
theorem cover6 (i : S1x128x2048x768.Idx) :
    ∃ t : Fin cfg0.N, (cfg0.win 6).flush t = true ∧ i ∈ ((cfg0.win 6).blk t).view.set := by
  have h0 : (i 0).val < 1 := (i 0).isLt
  have h1 : (i 1).val < 128 := (i 1).isLt
  have h2 : (i 2).val < 2048 := (i 2).isLt
  have h3 : (i 3).val < 768 := (i 3).isLt
  have hb : 16 * ((i 1).val / 16) + (i 2).val / 128 < cfg0.N := by rw [show cfg0.N = 128 from N_0]; omega
  obtain ⟨e0, e1, e2, e3⟩ := Blocks.idx6 ⟨16 * ((i 1).val / 16) + (i 2).val / 128, hb⟩
  refine ⟨⟨16 * ((i 1).val / 16) + (i 2).val / 128, hb⟩, flush0_6 _, ?_⟩
  rw [mem_blk6]
  intro a
  match a with
  | ⟨0, _⟩ =>
    show win0_6.index _ (0 : Fin 4) * 1 ≤ (i 0).val ∧ (i 0).val < win0_6.index _ (0 : Fin 4) * 1 + 1
    rw [e0]; omega
  | ⟨1, _⟩ =>
    show win0_6.index _ (1 : Fin 4) * 16 ≤ (i 1).val ∧ (i 1).val < win0_6.index _ (1 : Fin 4) * 16 + 16
    rw [e1]; dsimp only; omega
  | ⟨2, _⟩ =>
    show win0_6.index _ (2 : Fin 4) * 128 ≤ (i 2).val ∧ (i 2).val < win0_6.index _ (2 : Fin 4) * 128 + 128
    rw [e2]; dsimp only; omega
  | ⟨3, _⟩ =>
    show win0_6.index _ (3 : Fin 4) * 768 ≤ (i 3).val ∧ (i 3).val < win0_6.index _ (3 : Fin 4) * 768 + 768
    rw [e3]; omega

/-- The feature array after the run. -/
theorem final6 (c : Dev nD) : (dats m 0 c).arrAt 6 cfg0.N = featOf m c :=
  (dats m 0 c).arrAt_eq_of_cover 6 (featOf m c) (fun t _ => flushed6_eq m c t) cover6

end Cert.KernelIdeal.Feat

end
-- ==== Proof.SaeRecon.lean ====
/-
  The reconstruction output after the run.

  For each token tile the kernel walks the 16 hidden tiles in order, keeping a running sum in a scratch accumulator: the
  first tile resets it to zero and adds its partial sum, every later tile adds its own. After the last tile the
  accumulator holds zero plus the 16 partial sums; the body adds the decoder bias and stores the token tile's block of
  the reconstruction, which is written back at that point only. The 8 written blocks tile the array, and the 16 partial
  sums add up to the sum over all 2048 hidden units.
-/
import proofs.«149003_j37666863186493_2_alg».proof.Proof.Gen.KernelIdeal.Value
import proofs.«149003_j37666863186493_2_alg».proof.Proof.SaeBlocks
import proofs.«149003_j37666863186493_2_alg».proof.Proof.SaePoint

noncomputable section

open scoped BigOperators
open Idealize.ShloMosaic Idealize.ShloMosaic.TcCoe Idealize.SL.Sem
open Idealize.ShloMosaic.Pipeline (Dat)

namespace Cert.KernelIdeal.Recon

open Cert.KernelIdeal Cert.KernelIdeal.Gen Idealize.ShloMosaic.ValueIdx Cert.Sae

variable (m : (ℓ : Loc nD τ sig) → Buf (Elt Ideal) ℓ)

/-- The reconstruction of the argument arrays on core `c`. -/
abbrev reconOf (c : Dev nD) : Buf (Elt Ideal) ((c : Thread nD τ).loc main_v3_0) :=
  recon (m ((c : Thread nD τ).loc main_arg0)) (m ((c : Thread nD τ).loc main_arg1)) (m ((c : Thread nD τ).loc main_arg2)) (m ((c : Thread nD τ).loc main_arg3)) (m ((c : Thread nD τ).loc main_arg4))

/-- What grid point `n` adds to the accumulator: its hidden tile's partial sum for each token of its token tile. -/
def addend (c : Dev nD) (n : ℕ) : S16x768.Idx → Ideal .f32 :=
  fun i => part (m ((c : Thread nD τ).loc main_arg0)) (m ((c : Thread nD τ).loc main_arg1)) (m ((c : Thread nD τ).loc main_arg2)) (m ((c : Thread nD τ).loc main_arg3)) (tok (sN n) (i 0)) (i 1) (jN n)

/-- The body's accumulator update at point `n`, over whatever the accumulator held. -/
theorem step_point (c : Dev nD) (n : ℕ) (hb : n < cfg0.N) (acc : Vec Ideal S16x768 .f32) (i : S16x768.Idx) :
    k0_pay1 (k0_pay7 (F := Ideal) (iblk m c 0 ⟨n, hb⟩) (Pieces.rowsAt (grid0.coords ⟨n, hb⟩) (iblk m c 1 ⟨n, hb⟩)) (iblk m c 2 ⟨n, hb⟩) (Pieces.rowsAt (grid0.coords ⟨n, hb⟩) (iblk m c 3 ⟨n, hb⟩)) acc) i = acc i + addend m c n i := by
  obtain ⟨r, d, rfl⟩ : ∃ (r : Fin 16) (d : Fin 768), i = (ix2 r d : S16x768.Idx) :=
    ⟨i 0, i 1, eq_ix2 (n0 := 16) (n1 := 768) i⟩
  exact Point.acc_entry (m ((c : Thread nD τ).loc main_arg0)) (m ((c : Thread nD τ).loc main_arg1)) (m ((c : Thread nD τ).loc main_arg2)) (m ((c : Thread nD τ).loc main_arg3))
    (iblk m c 0 ⟨n, hb⟩) (Pieces.rowsAt (grid0.coords ⟨n, hb⟩) (iblk m c 1 ⟨n, hb⟩)) (iblk m c 2 ⟨n, hb⟩) (Pieces.rowsAt (grid0.coords ⟨n, hb⟩) (iblk m c 3 ⟨n, hb⟩)) (sN n) (jN n)
    (fun r k => Blocks.tokens_apply m c ⟨n, hb⟩ 0 r k) (fun h k => Blocks.enc_rows_apply m c ⟨n, hb⟩ h k)
    (fun h => Blocks.bias_enc_apply m c ⟨n, hb⟩ 0 h) (fun h d => Blocks.dec_rows_apply m c ⟨n, hb⟩ h d) acc r d

/-- At the first hidden tile of a token tile the accumulator is left at zero plus the point's addend. -/
theorem scAt_first (c : Dev nD) (n : ℕ) (hb : n < cfg0.N) (h0 : n % 16 = 0) (old : Vec Ideal S16x768 .f32) (i : S16x768.Idx) :
    Value.scAt0_0 m c n hb old i = z32 + addend m c n i := by
  have h1 : ¬n % 16 = 15 := by omega
  unfold Value.scAt0_0
  rw [dif_pos h0, dif_neg h1, Pieces.sout0_A_0_eq]
  exact (step_point m c n hb _ i).trans (congrArg₂ (· + ·) (Pay.pay3_apply i) rfl)

/-- At every later hidden tile it is left at what it held plus the point's addend. -/
theorem scAt_next (c : Dev nD) (n : ℕ) (hb : n < cfg0.N) (h0 : ¬n % 16 = 0) (acc : Vec Ideal S16x768 .f32) (i : S16x768.Idx) :
    Value.scAt0_0 m c n hb acc i = acc i + addend m c n i := by
  unfold Value.scAt0_0
  rw [dif_neg h0]
  by_cases h1 : n % 16 = 15
  · rw [dif_pos h1, Pieces.sout0_C_0_eq]; exact step_point m c n hb acc i
  · rw [dif_neg h1, Pieces.sout0_B_0_eq]; exact step_point m c n hb acc i

/-- After the last hidden tile of a token tile the accumulator holds zero plus the 16 tiles' partial sums. -/
theorem acc_last (c : Dev nD) (t : Fin cfg0.N) (h15 : t.val % 16 = 15) (r : Fin 16) (d : Fin 768) :
    (outsAt0 m c t.val t.isLt).2.2 (ix2 r d)
      = z32 + ∑ j : Fin 16, part (m ((c : Thread nD τ).loc main_arg0)) (m ((c : Thread nD τ).loc main_arg1)) (m ((c : Thread nD τ).loc main_arg2)) (m ((c : Thread nD τ).loc main_arg3)) (tok (sN t.val) r) d j := by
  have hN : t.val < 128 := lt_of_lt_of_eq t.isLt N_0
  have hlt : 16 * (t.val / 16) + t.val % 16 < cfg0.N := by have h1 := t.isLt; have h2 := Nat.div_add_mod t.val 16; omega
  rw [Value.soutsAt0_0_eq m c t]
  refine (Pipeline.accAt_add_apply (fun n h => Value.scAt0_0 m c n h (VS0_0.read (Elt Ideal) VS0_0.junk)) (Value.scAt0_0 m c)
      (fun _ => z32) (addend m c) (16 * (t.val / 16)) 15
      (fun h i => scAt_first m c (16 * (t.val / 16)) h (by omega) _ i)
      (fun n h acc i hlo hhi => scAt_next m c n h (by omega) acc i)
      (t.val % 16) (by omega) hlt (ix2 r d)).trans ?_
  have hr : t.val % 16 + 1 = 16 := by omega
  rw [hr, Finset.sum_range]
  refine congrArg (z32 + ·) (Finset.sum_congr rfl fun j _ => ?_)
  have hj : j.val < 16 := j.isLt
  show part _ _ _ _ (tok (sN (16 * (t.val / 16) + j.val)) r) d (jN (16 * (t.val / 16) + j.val)) = _
  exact part_congr _ _ _ _
    (congrArg (fun s => tok s r) (Fin.ext (by show (16 * (t.val / 16) + j.val) / 16 % 8 = t.val / 16 % 8; omega))) rfl
    (Fin.ext (by show (16 * (t.val / 16) + j.val) % 16 = j.val; omega))

/-- What the last point of a token tile writes back is its block of the reconstruction of the arguments. -/
theorem flushed5_eq (c : Dev nD) (t : Fin cfg0.N) (hf : (cfg0.win 5).flush t = true) :
    (dats m 0 c).flushed 5 t = ((cfg0.win 5).blk t).view.read (Elt Ideal) (reconOf m c) := by
  have h15 : t.val % 16 = 15 := (flush0_5 t).mp hf
  have h0 : ¬t.val % 16 = 0 := by omega
  have hN : t.val < 128 := lt_of_lt_of_eq t.isLt N_0
  obtain ⟨e0, e1, e2⟩ := Blocks.idx5 t
  have hacc : (outsAt0 m c t.val t.isLt).2.2
      = k0_pay1 (k0_pay7 (F := Ideal) (iblk m c 0 t) (Pieces.rowsAt (grid0.coords t) (iblk m c 1 t)) (iblk m c 2 t) (Pieces.rowsAt (grid0.coords t) (iblk m c 3 t))
          (outsAt0 m c (t.val - 1) (Nat.lt_of_le_of_lt (Nat.sub_le _ _) t.isLt)).2.2) := by
    rw [outsAt0_C m c t h0 h15]
    dsimp only
    rw [Pieces.sout0_C_0_eq]
  rw [Value.flushed5_C m c t h0 h15, Pieces.out0_C_5_eq, ← hacc]
  funext y
  obtain ⟨u, r, d, rfl⟩ : ∃ (u : Fin 1) (r : Fin 16) (d : Fin 768), y = (ix3 u r d : S1x16x768.Idx) :=
    ⟨y 0, y 1, y 2, eq_ix3 (n0 := 1) (n1 := 16) (n2 := 768) y⟩
  show k0_pay2 (F := Ideal) ((outsAt0 m c t.val t.isLt).2.2) (iblk m c 4 t) (ix3 u r d)
    = reconOf m c (((cfg0.win 5).blk t).view.emb (ix3 u r d))
  refine (Pay.pay2_apply _ _ u r d).trans ?_
  rw [acc_last m c t h15 r d, Blocks.bias_dec_apply m c t 0 d]
  exact (recon_apply_of _ _ _ _ _ _
    (Fin.ext (by show win0_5.index t (1 : Fin 3) * 16 + 1 * r.val = 16 * (t.val / 16 % 8) + r.val; omega))
    (Fin.ext (by show win0_5.index t (2 : Fin 3) * 768 + 1 * d.val = d.val; omega))).symm

/-- An index of the reconstruction is in point `t`'s block iff each coordinate is in the block's range on its axis. -/
theorem mem_blk5 (t : Fin cfg0.N) (i : S1x128x768.Idx) :
    i ∈ ((cfg0.win 5).blk t).view.set ↔ ∀ a : Fin 3, win0_5.index t a * S1x16x768.size a ≤ (i a).val
      ∧ (i a).val < win0_5.index t a * S1x16x768.size a + S1x16x768.size a := by
  show i ∈ ((View.whole main_v3_0).slice (win0_5.rect t)).set ↔ _
  rw [View.set_slice_whole, Rect.mem_set_unit]
  exact Iff.rfl

/-- Every entry is in the block written back at the last point of its token tile. -/
theorem cover5 (i : S1x128x768.Idx) :
    ∃ t : Fin cfg0.N, (cfg0.win 5).flush t = true ∧ i ∈ ((cfg0.win 5).blk t).view.set := by
  have h0 : (i 0).val < 1 := (i 0).isLt
  have h1 : (i 1).val < 128 := (i 1).isLt
  have h2 : (i 2).val < 768 := (i 2).isLt
  have hb : 16 * ((i 1).val / 16) + 15 < cfg0.N := by rw [show cfg0.N = 128 from N_0]; omega
  obtain ⟨e0, e1, e2⟩ := Blocks.idx5 ⟨16 * ((i 1).val / 16) + 15, hb⟩
  refine ⟨⟨16 * ((i 1).val / 16) + 15, hb⟩, (flush0_5 _).mpr (by dsimp only; omega), ?_⟩
  rw [mem_blk5]
  intro a
  match a with
  | ⟨0, _⟩ =>
    show win0_5.index _ (0 : Fin 3) * 1 ≤ (i 0).val ∧ (i 0).val < win0_5.index _ (0 : Fin 3) * 1 + 1
    rw [e0]; omega
  | ⟨1, _⟩ =>
    show win0_5.index _ (1 : Fin 3) * 16 ≤ (i 1).val ∧ (i 1).val < win0_5.index _ (1 : Fin 3) * 16 + 16
    rw [e1]; dsimp only; omega
  | ⟨2, _⟩ =>
    show win0_5.index _ (2 : Fin 3) * 768 ≤ (i 2).val ∧ (i 2).val < win0_5.index _ (2 : Fin 3) * 768 + 768
    rw [e2]; omega

/-- The reconstruction after the run. -/
theorem final5 (c : Dev nD) : (dats m 0 c).arrAt 5 cfg0.N = reconOf m c :=
  (dats m 0 c).arrAt_eq_of_cover 5 (reconOf m c) (flushed5_eq m c) cover5

end Cert.KernelIdeal.Recon

end
-- ==== Proof.SaeRef.lean ====
/-
  The reference program's two results, read one operation at a time, are the specification's functions.

  The reference contracts the tokens with the encoder weight over the 768 coordinates, adds the broadcast bias, takes the
  maximum with a broadcast zero, multiplies by the broadcast transposed decoder weight — that product is its feature
  result — and sums the product over the hidden axis from zero before adding the broadcast decoder bias. Each broadcast
  and the transpose only re-index, so at an index these are the encoder's activation, the feature entry and the
  reconstruction of the specification.
-/
import proofs.«149003_j37666863186493_2_alg».proof.Proof.Gen.ReferenceIdeal.Read
import proofs.«149003_j37666863186493_2_alg».proof.Proof.SaeSpec

noncomputable section

open scoped BigOperators

namespace Cert.ReferenceIdeal.RefValue

open Cert.ReferenceIdeal Cert.ReferenceIdeal.Read Idealize.ShloMosaic Idealize.ShloMosaic.ValueIdx Cert.Sae

/-- The reference's rectified pre-activation at `(0, s, h)` is the encoder's activation. -/
theorem act_ref (x0 : (⟨S1x128x768, .f32⟩ : BufTy).Contents (Elt Ideal)) (x1 : (⟨S2048x768, .f32⟩ : BufTy).Contents (Elt Ideal)) (x2 : (⟨S2048, .f32⟩ : BufTy).Contents (Elt Ideal)) (u : Fin 1) (s : Fin 128) (h : Fin 2048) :
    val_main_v4 (F := Ideal) x0 x1 x2 (ix3 u s h) = act x0 x1 x2 s h := by
  rw [val_main_v4_apply, val_main_v3_apply, val_main_v0_apply, val_main_v2_apply, val_main_v1_apply,
    val_main_call0_v0_apply, val_main_call0_cst_apply]
  show max ((∑ k : Fin 768, x0 (lidx_main_v0 (ix3 u s h) k) * x1 (ridx_main_v0 (ix3 u s h) k))
    + x2 (idx_main_v1 (idx_main_v2 (ix3 u s h)))) (Ideal.ofBits .f32 0x00000000#32) = _
  unfold act
  refine congrArg₂ max (congrArg₂ (· + ·) (Finset.sum_congr rfl fun k _ => congrArg₂ (· * ·) (congrArg x0 ?_) (congrArg x1 ?_)) (congrArg x2 ?_)) rfl
  · funext a
    match a with
    | ⟨0, _⟩ => exact Fin.ext (by show u.val = 0; omega)
    | ⟨1, _⟩ => rfl
    | ⟨2, _⟩ => rfl
  · funext a
    match a with
    | ⟨0, _⟩ => rfl
    | ⟨1, _⟩ => rfl
  · funext a
    match a with
    | ⟨0, _⟩ => rfl

/-- The reference's feature result is the specification's feature array. -/
theorem feat_ref (x0 : (⟨S1x128x768, .f32⟩ : BufTy).Contents (Elt Ideal)) (x1 : (⟨S2048x768, .f32⟩ : BufTy).Contents (Elt Ideal)) (x2 : (⟨S2048, .f32⟩ : BufTy).Contents (Elt Ideal)) (x3 : (⟨S768x2048, .f32⟩ : BufTy).Contents (Elt Ideal)) :
    val_main_v10 (F := Ideal) x0 x1 x2 x3 = feat x0 x1 x2 x3 := by
  funext i
  obtain ⟨u, s, h, d, rfl⟩ : ∃ (u : Fin 1) (s : Fin 128) (h : Fin 2048) (d : Fin 768), i = (ix4 u s h d : S1x128x2048x768.Idx) :=
    ⟨i 0, i 1, i 2, i 3, eq_ix4 (n0 := 1) (n1 := 128) (n2 := 2048) (n3 := 768) i⟩
  rw [val_main_v10_apply, val_main_v8_apply, val_main_v5_apply, val_main_v9_apply, val_main_v7_apply, val_main_v6_apply]
  show val_main_v4 (F := Ideal) x0 x1 x2 (idx_main_v5 (idx_main_v8 (ix4 u s h d)))
    * x3 (idx_main_v6 (idx_main_v7 (idx_main_v9 (ix4 u s h d)))) = term x0 x1 x2 x3 s d h
  unfold term
  refine congrArg₂ (· * ·) ?_ (congrArg x3 ?_)
  · have e : idx_main_v5 (idx_main_v8 (ix4 u s h d)) = (ix3 (0 : Fin 1) s h : S1x128x2048.Idx) := funext fun a => by
      match a with
      | ⟨0, _⟩ => rfl
      | ⟨1, _⟩ => rfl
      | ⟨2, _⟩ => rfl
    rw [e]
    exact act_ref x0 x1 x2 0 s h
  · funext a
    match a with
    | ⟨0, _⟩ => rfl
    | ⟨1, _⟩ => rfl

/-- The reference's reconstruction result is the specification's reconstruction. -/
theorem recon_ref (x0 : (⟨S1x128x768, .f32⟩ : BufTy).Contents (Elt Ideal)) (x1 : (⟨S2048x768, .f32⟩ : BufTy).Contents (Elt Ideal)) (x2 : (⟨S2048, .f32⟩ : BufTy).Contents (Elt Ideal)) (x3 : (⟨S768x2048, .f32⟩ : BufTy).Contents (Elt Ideal)) (x4 : (⟨S768, .f32⟩ : BufTy).Contents (Elt Ideal)) :
    val_main_v14 (F := Ideal) x0 x1 x2 x3 x4 = recon x0 x1 x2 x3 x4 := by
  funext i
  obtain ⟨u, s, d, rfl⟩ : ∃ (u : Fin 1) (s : Fin 128) (d : Fin 768), i = (ix3 u s d : S1x128x768.Idx) :=
    ⟨i 0, i 1, i 2, eq_ix3 (n0 := 1) (n1 := 128) (n2 := 768) i⟩
  rw [val_main_v14_apply, val_main_v11_apply, val_main_v13_apply, val_main_v12_apply, val_main_cst_apply]
  show (Ideal.ofBits .f32 0x00000000#32 + ∑ k : Fin 2048, val_main_v10 (F := Ideal) x0 x1 x2 x3 (idx_main_v11 (ix3 u s d) k))
    + x4 (idx_main_v12 (idx_main_v13 (ix3 u s d))) = (z32 + ∑ h : Fin 2048, term x0 x1 x2 x3 s d h) + x4 (ix1 d)
  refine congrArg₂ (· + ·) (congrArg (z32 + ·) (Finset.sum_congr rfl fun k _ => ?_)) (congrArg x4 ?_)
  · rw [feat_ref]
    exact term_congr _ _ _ _ rfl rfl rfl
  · funext a
    match a with
    | ⟨0, _⟩ => rfl

end Cert.ReferenceIdeal.RefValue

end
-- ==== Proof.lean ====
/-
  A sparse autoencoder's forward pass, tiled, against its plain form.

  The kernel walks a grid of 8 token tiles by 16 hidden tiles. At each point it computes the encoder's activation of
  16 tokens at 128 hidden units, `max (x · Weᵀ + be) 0`, multiplies it into the decoder weight's rows to store that
  point's block of the feature array, and adds the block's sum over the 128 hidden units into an accumulator that is
  reset at the first hidden tile and, after the last, stored with the decoder bias as the token tile's block of the
  reconstruction. The reference computes the activation for all tokens and hidden units at once, multiplies, and sums the
  product over all 2048 hidden units from zero before adding the bias.

  On the extended reals the two agree entry by entry. The feature entries are the same product on both sides. For the
  reconstruction the kernel's running sum `((0 + P₀) + P₁) + … + P₁₅` of the 16 tiles' partial sums is `0 + ∑ⱼ Pⱼ`,
  and the partial sums of the 16 tiles of 128 add up to the sum over the 2048 hidden units: addition of extended reals
  is commutative and associative, so neither step needs the inputs to be finite, and the precondition is never opened.
  The roundings to bf16 before the two matrix products are the identity on extended reals, and a matrix product into a
  zero accumulator is the plain sum.

  The modules: SaeSpec (the two results as functions of the five arguments; the sum by tiles), SaePieces (what the body
  leaves at a point, as terms of its loaded blocks), SaePay (those terms at an entry), SaePoint (the same in terms of
  the arguments, given what the blocks hold), SaeBlocks (what the blocks hold at each grid point), SaeFeat and SaeRecon
  (the two output arrays after the run), SaeRef (the reference's two results are the specification's functions).
-/
import proofs.«149003_j37666863186493_2_alg».proof.Defs
import proofs.«149003_j37666863186493_2_alg».proof.Proof.Gen.Kernel
import proofs.«149003_j37666863186493_2_alg».proof.Proof.Gen.Kernel.Skeleton
import proofs.«149003_j37666863186493_2_alg».proof.Proof.Gen.Kernel.Launch
import proofs.«149003_j37666863186493_2_alg».proof.Proof.Gen.Kernel.Points
import proofs.«149003_j37666863186493_2_alg».proof.Proof.Gen.Kernel.Frame
import proofs.«149003_j37666863186493_2_alg».proof.Proof.Gen.KernelIdeal
import proofs.«149003_j37666863186493_2_alg».proof.Proof.Gen.KernelIdeal.Skeleton
import proofs.«149003_j37666863186493_2_alg».proof.Proof.Gen.KernelIdeal.Launch
import proofs.«149003_j37666863186493_2_alg».proof.Proof.Gen.KernelIdeal.Points
import proofs.«149003_j37666863186493_2_alg».proof.Proof.Gen.KernelIdeal.Frame
import proofs.«149003_j37666863186493_2_alg».proof.Proof.Gen.ReferenceIdeal
import proofs.«149003_j37666863186493_2_alg».proof.Proof.Gen.Pre_finite_inputs
import proofs.«149003_j37666863186493_2_alg».proof.Proof.Gen.KernelIdeal.Value
import proofs.«149003_j37666863186493_2_alg».proof.Proof.Gen.ReferenceIdeal.Run
import proofs.«149003_j37666863186493_2_alg».proof.Proof.Gen.ReferenceIdeal.Read
import proofs.«149003_j37666863186493_2_alg».proof.Proof.SaeFeat
import proofs.«149003_j37666863186493_2_alg».proof.Proof.SaeRecon
import proofs.«149003_j37666863186493_2_alg».proof.Proof.SaeRef
import Idealize.ShloMosaic.Adequacy
import Idealize.ShloMosaic.Init

noncomputable section

open Idealize.ShloMosaic Idealize.ShloMosaic.TcCoe Idealize.SL.Sem

/-! ## The kernel's run, with both output arrays named as functions of the arguments -/

namespace Cert.KernelIdeal.Final

open Cert.KernelIdeal Cert.KernelIdeal.Gen

/-- Every weakly fair execution of the idealized kernel ends with the reconstruction and the feature array of the
    argument arrays in its two results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = Recon.reconOf m c
      ∧ r.2.mem ((c : Thread nD τ).loc main_v3_1) = Feat.featOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (Recon.final5 m c), (h c).2.1.trans (Feat.final6 m c), (h c).2.2⟩)
    (Value.run_blocks m ρ)

end Cert.KernelIdeal.Final

/-! ## The claims -/

namespace Cert.Proof

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs, run from memories that agree on the arguments, end with the specification's reconstruction and
    feature array of those arguments. -/
theorem algebraic : Cert.algebraic_KernelIdeal_ReferenceIdeal := by
  intro m ρ m' ρ' _ hagree
  refine ⟨fun c => Cert.KernelIdeal.Recon.reconOf m c, fun c => Cert.KernelIdeal.Feat.featOf m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.RefValue.recon_ref,
      (hagree c).1, (hagree c).2.1, (hagree c).2.2.1, (hagree c).2.2.2.1, (hagree c).2.2.2.2]
  · rw [Cert.ReferenceIdeal.Read.val_main_v10_eq, Cert.ReferenceIdeal.RefValue.feat_ref,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
